-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S65536 : S_.BroadcastsInDim S65536 (![] : Fin 0 → Fin S65536.rank)
  reducesTo_S65536_S_d0 : S65536.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S65536 .f32) (main_arg2 : FVec F S4096 .f32) (main_arg3 : IVec S4096x4096 32) (main_arg4 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 26
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096x1, .i32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .bf16⟩
  | .hbm, ⟨24, _⟩ => ⟨S1x4096, .f32⟩
  | .hbm, ⟨25, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  gather_S65536_S4096x4096x1_S4096x4096_n_0_n_n_0_2_1_wf : GatherDims.WF S65536 S4096x4096x1 S4096x4096 [] [0] [] [0] [] 2 ![1]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096x1, .i32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S65536_S4096x4096x1_S4096x4096_n_0_n_n_0_2_1_wf : GatherDims.WF S65536 S4096x4096x1 S4096x4096 [] [0] [] [0] [] 2 ![1]
  dot_S8192x4096_S4096x4096_S8192x4096_1_0_0_1_n_n_wf : DotDims.WF S8192x4096 S4096x4096 S8192x4096 [1] [0] [0] [1] [] []

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.KernelBlock.lean ====
/-
  One grid point of the kernel, read at an index of its output block.

  At a grid point the body holds a [512, 4096] block A of the activations, a [1024, 4096] block B of the weight matrix
  (rows are output features) and a [1, 1024] block v of the bias. It contracts A and B on their common LAST axis into a
  zero accumulator and adds v broadcast down the 512 rows. So entry (p, q) of what it stores is
      Σ_k A[p, k] · B[q, k] + v[0, q].
-/
import proofs.«120634_j15513421873630_2_alg».proof.Proof.Gen.KernelIdeal.Skeleton
import proofs.«120634_j15513421873630_2_alg».proof.Proof.LibDotRows
import Idealize.ShloMosaic.Lib.Pipeline.Value
import Idealize.ShloMosaic.Lib.ValueIdx

noncomputable section

open scoped BigOperators

namespace Cert.HashedLayer.Block

open Cert.KernelIdeal Cert.KernelIdeal.Gen
open Idealize.ShloMosaic Idealize.ShloMosaic.ValueIdx

/-- The bias block broadcast down the rows reads, at (p, q), the block's one row at column q. -/
theorem bias_rows_apply (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The body's stored value at (p, q): the inner product of row p of the activation block with row q of the weight
    block, plus the bias block's entry at column q. -/
theorem payload_apply (A : Vec Ideal S512x4096 .bf16) (B : Vec Ideal S1024x4096 .bf16) (v : Vec Ideal S1x1024 .f32)
    (p : Fin 512) (q : Fin 1024) :
    k0_pay1 (F := Ideal) A B v (ix2 p q) = (∑ k : Fin 4096, A (ix2 p k) * B (ix2 q k)) + v (ix2 (0 : Fin 1) q) := by
  unfold k0_pay1
  show (matmul (F := Ideal) dot_S512x4096_S1024x4096_S512x1024_1_1_0_0_n_n none (shapeCast S512x4096 A shapeCasts_S512x4096_S512x4096)
      (shapeCast S1024x4096 B shapeCasts_S1024x4096_S1024x4096) (constant (F := Ideal) S512x1024 .f32 0x00000000#32)) (ix2 p q)
    + (broadcastTo S512x1024 (shapeCast S1x1024 v shapeCasts_S1x1024_S1x1024) broadcasts_S1x1024_S512x1024) (ix2 p q) = _
  rw [shapeCast_self A, shapeCast_self B, shapeCast_self v, bias_rows_apply]
  congr 1
  exact Cert.LibDotRows.matmul_transposedRhs_apply (m := 512) (k := 4096) (n := 1024) none A B p q

end Cert.HashedLayer.Block

end
-- ==== Proof.KernelHost.lean ====
/-
  What the kernel's three input windows hold when the region is entered.

  Before the region, the host prefix computes, from the argument arrays,
    * the activations x with their format narrowed (the identity on extended reals),
    * the weight matrix  w[n, k] = (1 − 2 · float(sign[n, k])) · table[idx'[n, k]],  idx' the hash index with a negative
      entry wrapped by +65536, the table entry fetched by a gather, and again a narrowing of format,
    * the bias [4096] viewed as one row [1, 4096].
  Each array is read here as that term of the launch memory; the weight matrix is kept as one named term and is
  never opened.
-/
import proofs.«120634_j15513421873630_2_alg».proof.Proof.Gen.KernelIdeal.Frame
import Idealize.ShloMosaic.Lib.StableHlo.Run
import Idealize.ShloMosaic.Lib.Pipeline.Value
import Idealize.ShloMosaic.Lib.ValueIdx

noncomputable section

namespace Cert.HashedLayer.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The expanded weight matrix, by output row: the sign factor 1 − 2·float(s) times the table entry the (wrapped)
    hash index selects. -/
def weight (table : (⟨S65536, .f32⟩ : BufTy).Contents (Elt Ideal)) (h s : (⟨S4096x4096, .i32⟩ : BufTy).Contents (Elt Ideal)) :
    (⟨S4096x4096, .f32⟩ : BufTy).Contents (Elt Ideal) :=
  mulf (subf (broadcastInDim S4096x4096 ![] bcast_S_S4096x4096 (constant (F := Ideal) S_ .f32 0x3F800000#32))
      (mulf (broadcastInDim S4096x4096 ![] bcast_S_S4096x4096 (constant (F := Ideal) S_ .f32 0x40000000#32)) (sitofp .f32 s)))
    (Host.gather gather_S65536_S4096x4096x1_S4096x4096_n_0_n_n_0_2_1 table
      (broadcastInDim S4096x4096x1 ![0, 1] bcast_S4096x4096_S4096x4096x1_0_1
        (select (cmpi .slt h (broadcastInDim S4096x4096 ![] bcast_S_S4096x4096 (constantI S_ 32 0#32)))
          (addi h (broadcastInDim S4096x4096 ![] bcast_S_S4096x4096 (constantI S_ 32 65536#32))) h)))

/-- The activation window's array is the activation argument: narrowing the format changes no extended real. -/
theorem V_activations (c : Dev nD) :
    (V m c main_v14 : S8192x4096.Idx → EReal) = m ((c : Thread nD τ).loc main_arg0) := by
  dsimp only [V, hostOps0]; after_results; rfl

/-- The weight window's array is the expanded weight matrix of the table, the hash indices and the sign bits. -/
theorem V_weight (c : Dev nD) :
    (V m c main_v13 : S4096x4096.Idx → EReal)
      = weight (m ((c : Thread nD τ).loc main_arg1)) (m ((c : Thread nD τ).loc main_arg3)) (m ((c : Thread nD τ).loc main_arg4)) := by
  dsimp only [V, hostOps0]; after_results_simp; rfl

/-- The bias window's array, a single row, reads at (0, n) the bias argument at n. -/
theorem V_bias_apply (c : Dev nD) (n : Fin 4096) :
    (V m c main_v15 : S1x4096.Idx → EReal) (ix2 (0 : Fin 1) n) = m ((c : Thread nD τ).loc main_arg2) (ix1 n) := by
  have e : (V m c main_v15 : S1x4096.Idx → EReal)
      = shapeCast S1x4096 (m ((c : Thread nD τ).loc main_arg2)) shapeCasts_S4096_S1x4096 := by
    dsimp only [V, hostOps0]; after_results; rfl
  rw [e]
  exact shapeCast_apply _ shapeCasts_S4096_S1x4096 (ix2 (0 : Fin 1) n) (ix1 n) (by
    rw [Shape.rowMajor_val_one, Shape.rowMajor_val_two]; show n.val = 0 * 4096 + n.val; omega)

end Cert.HashedLayer.Host

end
-- ==== Proof.Spec.lean ====
/-
  A dense layer whose weight matrix is expanded from a small table: the specification both programs meet.

  For activations x : [8192, 4096], a weight matrix w : [4096, 4096] stored by OUTPUT row (w[n, k] multiplies input
  feature k into output feature n) and a bias b : [4096], the layer is
      y[r, n] = Σ_k x[r, k] · w[n, k] + b[n]
  on the extended reals. The sum runs over the shared input-feature axis of x and w; nothing here uses a law
  that fails at an infinity, so the function is stated for arbitrary extended-real entries.
-/
import Idealize.ShloMosaic.PureOps.Ideal
import Idealize.ShloMosaic.Lib.ValueIdx

noncomputable section

open scoped BigOperators

namespace Cert.HashedLayer

open Idealize.ShloMosaic Idealize.ShloMosaic.ValueIdx

/-- The inner product of row `r` of `x` with row `n` of `w`, over their common axis of 4096 input features. -/
def rowDot (x : FVec Ideal ⟨2, ![8192, 4096]⟩ .f32) (w : FVec Ideal ⟨2, ![4096, 4096]⟩ .f32) (r : Fin 8192) (n : Fin 4096) : EReal :=
  ∑ k : Fin 4096, x (ix2 r k) * w (ix2 n k)

/-- The layer: entry (r, n) of the result is the inner product of row `r` of `x` with row `n` of `w`, plus `b[n]`. -/
def layer (x : FVec Ideal ⟨2, ![8192, 4096]⟩ .f32) (w : FVec Ideal ⟨2, ![4096, 4096]⟩ .f32) (b : FVec Ideal ⟨1, ![4096]⟩ .f32) :
    FVec Ideal ⟨2, ![8192, 4096]⟩ .f32 :=
  fun i => rowDot x w (i 0) (i 1) + b (ix1 (i 1))

theorem layer_apply (x : FVec Ideal ⟨2, ![8192, 4096]⟩ .f32) (w : FVec Ideal ⟨2, ![4096, 4096]⟩ .f32) (b : FVec Ideal ⟨1, ![4096]⟩ .f32)
    (r : Fin 8192) (n : Fin 4096) :
    layer x w b (ix2 r n) = (∑ k : Fin 4096, x (ix2 r k) * w (ix2 n k)) + b (ix1 n) := rfl

end Cert.HashedLayer

end
-- ==== Proof.KernelValue.lean ====
/-
  The kernel's result array, as one function of the launch memory.

  The grid is 4 × 16: point (j, i) works on rows i·512 … i·512+511 of the activations, rows j·1024 … j·1024+1023 of
  the weight matrix (output features), the same 1024 columns of the bias row, and writes block (i, j) of the
  [8192, 4096] result. Every block spans the whole contracted axis, so entry (p, q) of the block a point writes is the
  layer's entry at row i·512 + p and column j·1024 + q, computed from the arrays the region finds. The 64 output blocks
  tile the result, so the array ends at the layer of those arrays; and those arrays are the activations, the expanded
  weight matrix and the bias of the launch memory.
-/
import proofs.«120634_j15513421873630_2_alg».proof.Proof.Gen.KernelIdeal.Value
import proofs.«120634_j15513421873630_2_alg».proof.Proof.KernelBlock
import proofs.«120634_j15513421873630_2_alg».proof.Proof.KernelHost
import proofs.«120634_j15513421873630_2_alg».proof.Proof.Spec

noncomputable section

open scoped BigOperators

namespace Cert.HashedLayer.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The bias row the region finds, as a vector over the 4096 output features. -/
def foundBias (c : Dev nD) : FVec Ideal ⟨1, ![4096]⟩ .f32 :=
  fun j => (V m c main_v15 : S1x4096.Idx → EReal) (ix2 (0 : Fin 1) (j 0))

/-- The layer of the three arrays the region finds in its input windows. -/
def found (c : Dev nD) : S8192x4096.Idx → EReal :=
  Cert.HashedLayer.layer (V m c main_v14 : S8192x4096.Idx → EReal) (V m c main_v13 : S4096x4096.Idx → EReal) (foundBias m c)

/-- How the four windows move over the grid: the activation block follows the output block's row index and spans the
    contracted axis; the weight block and the bias block follow the output block's column index. -/
theorem window_steps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block of the 16 × 4 tiling of the result is some point's output block. -/
theorem every_block : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- What point `t` writes back is its block of the layer of the found arrays. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero origin]
  simp only [View.ld_unit_zero (S := S512x4096) origin, View.ld_unit_zero (S := S1024x4096) origin, View.ld_unit_zero (S := S1x1024) origin]
  obtain ⟨e0, e1, e2, e3, e4, e5⟩ := window_steps t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = found m c (((cfg0.win 3).blk t).view.emb (ix2 p q))
  refine (Cert.HashedLayer.Block.payload_apply (iblk m c 0 t) (iblk m c 1 t) (iblk m c 2 t) p q).trans ?_
  -- row p of the activation block is row (i·512 + p) of the activations
  have hA : ∀ k : Fin 4096, iblk m c 0 t (ix2 p k)
      = (V m c main_v14 : S8192x4096.Idx → EReal) (ix2 ((((cfg0.win 3).blk t).view.emb (ix2 p q)) 0) k) := fun k => by
    show V m c main_v14 (((cfg0.win 0).blk t).view.emb (ix2 p k)) = _
    refine congrArg (V m c main_v14) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  -- row q of the weight block is row (j·1024 + q) of the weight matrix
  have hB : ∀ k : Fin 4096, iblk m c 1 t (ix2 q k)
      = (V m c main_v13 : S4096x4096.Idx → EReal) (ix2 ((((cfg0.win 3).blk t).view.emb (ix2 p q)) 1) k) := fun k => by
    show V m c main_v13 (((cfg0.win 1).blk t).view.emb (ix2 q k)) = _
    refine congrArg (V m c main_v13) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 4096 + 1 * k.val = k.val; omega
  -- column q of the bias block is column (j·1024 + q) of the bias row
  have hv : iblk m c 2 t (ix2 (0 : Fin 1) q)
      = foundBias m c (ix1 ((((cfg0.win 3).blk t).view.emb (ix2 p q)) 1)) := by
    show V m c main_v15 (((cfg0.win 2).blk t).view.emb (ix2 (0 : Fin 1) q)) = V m c main_v15 _
    refine congrArg (V m c main_v15) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hv]
  simp only [hA, hB]
  rfl

/-- An index of the result is in point `t`'s output block iff each coordinate lies in the block's range. -/
theorem mem_block (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v16).slice (win0_3.rect t)).set ↔ _
  rw [View.set_slice_whole, Rect.mem_set_unit]
  exact Iff.rfl

/-- The output blocks tile the result: entry (r, n) lies in the block with row index r / 512 and column index n / 1024. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the run is the layer of the arrays the region found. -/
theorem final (c : Dev nD) : (dats m 0 c).arrAt 3 cfg0.N = found m c :=
  (dats m 0 c).arrAt_eq_of_cover 3 (found m c) (fun t _ => flushed_eq m c t) covered

/-- Those arrays are the activations, the expanded weight matrix and the bias of the launch memory. -/
theorem found_eq (c : Dev nD) :
    found m c = Cert.HashedLayer.layer (m ((c : Thread nD τ).loc main_arg0))
      (Cert.HashedLayer.Host.weight (m ((c : Thread nD τ).loc main_arg1)) (m ((c : Thread nD τ).loc main_arg3)) (m ((c : Thread nD τ).loc main_arg4)))
      (m ((c : Thread nD τ).loc main_arg2)) := by
  have hb : foundBias m c = m ((c : Thread nD τ).loc main_arg2) := funext fun j =>
    (Cert.HashedLayer.Host.V_bias_apply m c (j 0)).trans (congrArg _ (eq_ix1 j).symm)
  unfold found
  rw [hb, Cert.HashedLayer.Host.V_activations, Cert.HashedLayer.Host.V_weight]

/-- The kernel's run: the result array ends at the layer of the launch memory's arrays, the arguments unchanged. -/
theorem run : θ_run defs (onTc (τ := τ) (main (F := Ideal))) ⟨m, fun _ => 0, ρ⟩ fun r => ∀ c : Dev nD,
      r.2.mem ((c : Thread nD τ).loc main_v16) = Cert.HashedLayer.layer (m ((c : Thread nD τ).loc main_arg0))
        (Cert.HashedLayer.Host.weight (m ((c : Thread nD τ).loc main_arg1)) (m ((c : Thread nD τ).loc main_arg3)) (m ((c : Thread nD τ).loc main_arg4)))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (Value.run_blocks m ρ)

end Cert.HashedLayer.Kernel

end
-- ==== Proof.RefValue.lean ====
/-
  The reference, read index by index, is the layer of Spec.lean applied to its own expanded weight matrix.

  The reference forms the weight matrix w (by output row), transposes it, multiplies x by the transpose and adds the
  bias broadcast down the rows. Entry (r, n) of x · wᵀ is Σ_k x[r, k] · wᵀ[k, n] = Σ_k x[r, k] · w[n, k], and the
  broadcast bias at (r, n) is b[n]: exactly `layer x w b`. The weight matrix itself is left as the reference's own
  stage; the kernel's host prefix builds the same term.
-/
import proofs.«120634_j15513421873630_2_alg».proof.Proof.Gen.ReferenceIdeal.Read
import proofs.«120634_j15513421873630_2_alg».proof.Proof.Spec

noncomputable section

open scoped BigOperators

namespace Cert.HashedLayer.Ref

open Cert.ReferenceIdeal Cert.ReferenceIdeal.Gen Cert.ReferenceIdeal.Read
open Idealize.ShloMosaic Idealize.ShloMosaic.ValueIdx

/-- The reference's result stage is the layer over the reference's weight stage. -/
theorem result_eq_layer (x0 : (⟨S8192x4096, .f32⟩ : BufTy).Contents (Elt Ideal)) (x1 : (⟨S65536, .f32⟩ : BufTy).Contents (Elt Ideal))
    (x2 : (⟨S4096, .f32⟩ : BufTy).Contents (Elt Ideal)) (x3 x4 : (⟨S4096x4096, .i32⟩ : BufTy).Contents (Elt Ideal)) :
    val_main_v18 (F := Ideal) x0 x1 x2 x3 x4 = Cert.HashedLayer.layer x0 (val_main_v13 (F := Ideal) x1 x3 x4) x2 := by
  funext i
  -- the contraction reads x along row (i 0) and, through the transpose, w along row (i 1)
  have el : ∀ k : Fin 4096, lidx_main_v15 i k = ix2 (i 0) k := fun k => funext fun a => Fin.ext (by
    match a with | ⟨0, _⟩ => rfl | ⟨1, _⟩ => rfl)
  have er : ∀ k : Fin 4096, idx_main_v14 (ridx_main_v15 i k) = ix2 (i 1) k := fun k => funext fun a => Fin.ext (by
    match a with | ⟨0, _⟩ => rfl | ⟨1, _⟩ => rfl)
  -- the bias broadcast twice reads b at the column
  have eb : idx_main_v16 (idx_main_v17 i) = ix1 (i 1) := funext fun a => Fin.ext (by
    match a with | ⟨0, _⟩ => rfl)
  rw [val_main_v18_apply, val_main_v15_apply, val_main_v17_apply, val_main_v16_apply, eb]
  simp only [val_main_v14_apply, el, er]
  rfl

end Cert.HashedLayer.Ref

end
-- ==== Proof.lean ====
/-
  A hashed dense layer: the kernel against its reference, on the extended reals.

  Both programs expand a weight matrix from a 65536-entry table,
      w[n, k] = (1 − 2 · float(sign[n, k])) · table[idx[n, k]]        (a negative index wrapped by +65536),
  by the same host operations on the same literals, and compute
      y[r, n] = Σ_k x[r, k] · w[n, k] + bias[n]                       (Proof/Spec.lean, `layer`).
  The reference transposes w, multiplies x by the transpose in one product and adds the bias broadcast down the rows
  (Proof/RefValue.lean). The kernel narrows the format of x and w (the identity on extended reals), views the bias
  as one row, and tiles the result in 16 × 4 blocks of 512 × 1024: each grid point contracts a 512-row block of x with
  a 1024-row block of w over the WHOLE common axis and adds its 1024 columns of the bias row (Proof/KernelBlock.lean for
  one point, Proof/KernelHost.lean for the arrays the region finds, Proof/KernelValue.lean for the whole array). Every
  entry is the same finite sum of the same products in both programs, so no law that could fail at an infinity is
  used and the precondition is never opened.

  The three frames are the generated ones (the reference's is its generated run with the result dropped); the
  idealization rewrote no operation, so `preserves` is `True`.
-/
import proofs.«120634_j15513421873630_2_alg».proof.Defs
import proofs.«120634_j15513421873630_2_alg».proof.Proof.Gen.Kernel
import proofs.«120634_j15513421873630_2_alg».proof.Proof.Gen.Kernel.Skeleton
import proofs.«120634_j15513421873630_2_alg».proof.Proof.Gen.Kernel.Launch
import proofs.«120634_j15513421873630_2_alg».proof.Proof.Gen.Kernel.Points
import proofs.«120634_j15513421873630_2_alg».proof.Proof.Gen.Kernel.Frame
import proofs.«120634_j15513421873630_2_alg».proof.Proof.Gen.KernelIdeal
import proofs.«120634_j15513421873630_2_alg».proof.Proof.Gen.KernelIdeal.Skeleton
import proofs.«120634_j15513421873630_2_alg».proof.Proof.Gen.KernelIdeal.Launch
import proofs.«120634_j15513421873630_2_alg».proof.Proof.Gen.KernelIdeal.Points
import proofs.«120634_j15513421873630_2_alg».proof.Proof.Gen.KernelIdeal.Frame
import proofs.«120634_j15513421873630_2_alg».proof.Proof.Gen.ReferenceIdeal
import proofs.«120634_j15513421873630_2_alg».proof.Proof.Gen.Pre_finite_inputs
import proofs.«120634_j15513421873630_2_alg».proof.Proof.Gen.KernelIdeal.Value
import proofs.«120634_j15513421873630_2_alg».proof.Proof.Gen.ReferenceIdeal.Run
import proofs.«120634_j15513421873630_2_alg».proof.Proof.Gen.ReferenceIdeal.Read
import proofs.«120634_j15513421873630_2_alg».proof.Proof.KernelValue
import proofs.«120634_j15513421873630_2_alg».proof.Proof.RefValue
import Idealize.ShloMosaic.Adequacy
import Idealize.ShloMosaic.Init

noncomputable section

namespace Cert.Proof

open Idealize.ShloMosaic Idealize.SL.Sem

/-- The kernel's host prefix and the reference expand the weight matrix by the same operations on the same literals
    (1.0, 2.0, 0 and 65536) and the same gather: one term of the table, the hash indices and the sign bits. -/
theorem weight_eq (table : (⟨Cert.KernelIdeal.S65536, .f32⟩ : BufTy).Contents (Elt Ideal))
    (h s : (⟨Cert.KernelIdeal.S4096x4096, .i32⟩ : BufTy).Contents (Elt Ideal)) :
    Cert.HashedLayer.Host.weight table h s = Cert.ReferenceIdeal.Read.val_main_v13 (F := Ideal) table h s := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the layer of the activations, the expanded weight matrix and the bias: the kernel's by its
    blocks, the reference's by its one product, and the two weight matrices are one term of arguments that agree. -/
theorem algebraic : Cert.algebraic_KernelIdeal_ReferenceIdeal := by
  intro m ρ m' ρ' _ hagree
  refine ⟨_, Cert.HashedLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.HashedLayer.Ref.result_eq_layer,
    (hagree c).1, (hagree c).2.1, (hagree c).2.2.1, (hagree c).2.2.2.1, (hagree c).2.2.2.2, weight_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
